-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S512x1 : Shape := ⟨2, ![512, 1]⟩
abbrev S512x512 : Shape := ⟨2, ![512, 512]⟩
abbrev S512 : Shape := ⟨1, ![512]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 3 → Nat :=
  let c0_4 : Index := 0#32
  let c512_i32 : BitVec 32 := 512#32
  let v6 : BitVec 32 := Scalar.muli c0_i32 c512_i32
  let v7 : BitVec 32 := v6
  let v8 : Index := Scalar.indexCast v7
  let c0_5 : Index := 0#32
  ![0, v8.toNat, 0]
def k0_mult2 : BitVec 32 :=
  let c1_i32 : BitVec 32 := 1#32
  let c512_i32_13 : BitVec 32 := 512#32
  let v36 : BitVec 32 := Scalar.muli c1_i32 c512_i32_13
  v36
def k0_mult3 : BitVec 32 :=
  let c2_i32 : BitVec 32 := 2#32
  let c512_i32_23 : BitVec 32 := 512#32
  let v66 : BitVec 32 := Scalar.muli c2_i32 c512_i32_23
  v66
def k0_mult4 : BitVec 32 :=
  let c3_i32 : BitVec 32 := 3#32
  let c512_i32_33 : BitVec 32 := 512#32
  let v96 : BitVec 32 := Scalar.muli c3_i32 c512_i32_33
  v96
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  shapeCasts_S32x2048x64_S2x16x2048x64 : S32x2048x64.ShapeCasts S2x16x2048x64
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  k0_mult1_dvd : 512 ∣ k0_mult1.toNat
  k0_off1_inb : ∀ (r : Fin 4), ∀ a, (k0_off1 (BitVec.ofNat 32 r.val)) a + S1x512x64.size a ≤ S1x2048x64.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S_, .f32⟩
  | .hbm, ⟨10, _⟩ => ⟨S2x16x2048, .f32⟩
  | .hbm, ⟨11, _⟩ => ⟨S2x16x2048, .f32⟩
  | .hbm, ⟨12, _⟩ => ⟨S2x16x2048x1, .f32⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x2048, .f32⟩
  | .hbm, ⟨20, _⟩ => ⟨S2x16x2048x2048, .f32⟩
  | .hbm, ⟨21, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention at one output entry, as two formulas on the extended reals.

  For a row of scores `s k` (the scaled inner products of one query row with every key row) and the
  matching column of values `v k`:
  * `refRow` is the textbook form: with `M` the maximum of the scores, the weights are
    `exp (s k - M) / ∑ k', exp (s k' - M)` and the entry is the weighted sum of the values.
  * `kernelRow` is the streaming form over four consecutive chunks of keys: a running maximum `m`, a
    running normaliser `l` and a running weighted sum `a`, each rescaled by `exp (m_old - m_new)`
    when a chunk raises the maximum; the entry is `a / l` after the last chunk.
  The whole-array functions `G` (textbook) and `GK` (streaming) apply these entry by entry to
  arrays of shape [2, 16, 2048, 64].
-/
import Idealize.ShloMosaic.PureOps.Ideal
import Idealize.ShloMosaic.Lib.ValueIdx
import Mathlib.Logic.Equiv.Fin.Basic

noncomputable section

namespace Cert.Attn

open Idealize.ShloMosaic Idealize.ShloMosaic.ValueIdx

/-! ## One chunk of the streaming form -/

/-- The running maximum after a chunk with scores `s`. -/
def stepM {n : ℕ} (m : EReal) (s : Fin n → EReal) : EReal := max m (Finset.univ.fold max ⊥ s)

/-- The running normaliser after the chunk: the old one rescaled, plus the chunk's weights. -/
def stepL {n : ℕ} (m l : EReal) (s : Fin n → EReal) : EReal :=
  Ideal.exp (m - stepM m s) * l + ∑ j, Ideal.exp (s j - stepM m s)

/-- The running weighted sum after the chunk: the old one rescaled, plus the chunk's weighted values. -/
def stepA {n : ℕ} (m a : EReal) (s v : Fin n → EReal) : EReal :=
  Ideal.exp (m - stepM m s) * a + ∑ j, Ideal.exp (s j - stepM m s) * v j

/-! ## Four chunks -/

section Four
variable {n : ℕ} (s v : Fin 4 → Fin n → EReal)

def km1 : EReal := stepM ⊥ (s 0)
def kl1 : EReal := stepL ⊥ 0 (s 0)
def ka1 : EReal := stepA ⊥ 0 (s 0) (v 0)
def km2 : EReal := stepM (km1 s) (s 1)
def kl2 : EReal := stepL (km1 s) (kl1 s) (s 1)
def ka2 : EReal := stepA (km1 s) (ka1 s v) (s 1) (v 1)
def km3 : EReal := stepM (km2 s) (s 2)
def kl3 : EReal := stepL (km2 s) (kl2 s) (s 2)
def ka3 : EReal := stepA (km2 s) (ka2 s v) (s 2) (v 2)
def km4 : EReal := stepM (km3 s) (s 3)
def kl4 : EReal := stepL (km3 s) (kl3 s) (s 3)
def ka4 : EReal := stepA (km3 s) (ka3 s v) (s 3) (v 3)

/-- The streaming form's entry: the weighted sum over the normaliser, after the fourth chunk. -/
def kernelRow : EReal := Ideal.div (ka4 s v) (kl4 s)

end Four

/-! ## The textbook form -/

/-- Softmax-weighted sum of `v` with scores `s`, the maximum subtracted before exponentiating. -/
def refRow {N : ℕ} (s v : Fin N → EReal) : EReal :=
  ∑ k, Ideal.div (Ideal.exp (s k - max ⊥ (Finset.univ.fold max ⊥ s)))
      (0 + ∑ k', Ideal.exp (s k' - max ⊥ (Finset.univ.fold max ⊥ s))) * v k

/-! ## Keys in four chunks of 512 -/

/-- Key `512 * c + j` is the `j`-th key of chunk `c`. -/
def e512 : Fin 4 × Fin 512 ≃ Fin 2048 := finProdFinEquiv

theorem e512_val (c : Fin 4) (j : Fin 512) : (e512 (c, j)).val = j.val + 512 * c.val := rfl

/-! ## The arrays -/

/-- An array of shape [2, 16, 2048, 64] of extended reals. -/
abbrev A4 : Type := (⟨4, ![2, 16, 2048, 64]⟩ : Shape).Idx → EReal

/-- The score of query row `r` against key row `kk` in batch `b`, head `h`: their inner product
    over the 64 features, times the scale (the pattern of 1/8). -/
def score (q k : A4) (b : Fin 2) (h : Fin 16) (r kk : Fin 2048) : EReal :=
  (∑ e : Fin 64, q (ix4 b h r e) * k (ix4 b h kk e)) * Ideal.ofBits .f32 0x3E000000#32

/-- Attention's entry (b, h, r, d), textbook form. -/
def attn (q k v : A4) (b : Fin 2) (h : Fin 16) (r : Fin 2048) (d : Fin 64) : EReal :=
  refRow (fun kk => score q k b h r kk) (fun kk => v (ix4 b h kk d))

/-- Attention's entry (b, h, r, d), streaming form over the four chunks of keys. -/
def attnK (q k v : A4) (b : Fin 2) (h : Fin 16) (r : Fin 2048) (d : Fin 64) : EReal :=
  kernelRow (fun c j => score q k b h r (e512 (c, j))) (fun c j => v (ix4 b h (e512 (c, j)) d))

/-- The textbook attention of whole arrays. -/
def G (q k v : A4) : A4 := fun i => attn q k v (i 0) (i 1) (i 2) (i 3)

/-- The streaming attention of whole arrays. -/
def GK (q k v : A4) : A4 := fun i => attnK q k v (i 0) (i 1) (i 2) (i 3)

theorem G_ix4 (q k v : A4) (b : Fin 2) (h : Fin 16) (r : Fin 2048) (d : Fin 64) :
    G q k v (ix4 b h r d) = attn q k v b h r d := rfl

theorem GK_ix4 (q k v : A4) (b : Fin 2) (h : Fin 16) (r : Fin 2048) (d : Fin 64) :
    GK q k v (ix4 b h r d) = attnK q k v b h r d := rfl

end Cert.Attn

end
-- ==== Proof.SoftmaxLaw.lean ====
/-
  The streaming form of softmax attention equals the textbook form when every score and value is real.

  Both forms are quotients of real sums. With `c = exp (-m)` for whatever real maximum `m` a form has
  subtracted, its numerator is `c * ∑ k, exp (s k) * v k` and its normaliser `c * ∑ k, exp (s k)`; the
  factor `c` cancels, so neither the running maxima nor the final one enter the result.
-/
import proofs.«109168_j47029891891312_2_alg».proof.Proof.Spec
import Mathlib.Analysis.SpecialFunctions.Exp
import Mathlib.Algebra.BigOperators.Fin

noncomputable section

namespace Cert.Attn

open Idealize.ShloMosaic Idealize.ShloMosaic.ValueIdx

/-! ## Finite sums and maxima of coerced reals -/

/-- The coercion of reals into the extended reals commutes with finite sums. -/
theorem coe_sum {ι : Type*} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- The maximum of finitely many reals over a nonempty index set is a real. -/
theorem fold_real {n : ℕ} [NeZero n] (s : Fin n → ℝ) :
    ∃ r : ℝ, Finset.univ.fold max ⊥ (fun j => ((s j : ℝ) : EReal)) = (r : EReal) := by
  have hlt : Finset.univ.fold max ⊥ (fun j => ((s j : ℝ) : EReal)) < ⊤ :=
    (Finset.fold_max_lt _).2 ⟨bot_lt_top, fun j _ => EReal.coe_lt_top _⟩
  have hgt : ⊥ < Finset.univ.fold max ⊥ (fun j => ((s j : ℝ) : EReal)) :=
    (Finset.lt_fold_max _).2 (Or.inr ⟨0, Finset.mem_univ _, EReal.bot_lt_coe _⟩)
  exact ⟨_, (EReal.coe_toReal hlt.ne hgt.ne').symm⟩

/-- The first chunk's running maximum is a real. -/
theorem stepM_bot_real {n : ℕ} [NeZero n] (s : Fin n → ℝ) :
    ∃ r : ℝ, stepM ⊥ (fun j => ((s j : ℝ) : EReal)) = (r : EReal) := by
  obtain ⟨r, hr⟩ := fold_real s
  exact ⟨r, by rw [stepM, hr, max_eq_right bot_le]⟩

/-- A later chunk's running maximum is a real. -/
theorem stepM_coe_real {n : ℕ} [NeZero n] (m : ℝ) (s : Fin n → ℝ) :
    ∃ r : ℝ, stepM (m : EReal) (fun j => ((s j : ℝ) : EReal)) = (r : EReal) := by
  obtain ⟨r, hr⟩ := fold_real s
  exact ⟨max m r, by rw [stepM, hr]; exact (EReal.coe_strictMono.monotone.map_max).symm⟩

/-! ## One chunk in real form -/

/-- In the reals: rescaling `exp (-m) * S` from maximum `m` to `m'` and adding the chunk's terms. -/
theorem real_step {n : ℕ} (m m' S : ℝ) (s w : Fin n → ℝ) :
    Real.exp (m - m') * (Real.exp (-m) * S) + ∑ j, Real.exp (s j - m') * w j
      = Real.exp (-m') * (S + ∑ j, Real.exp (s j) * w j) := by
  have h1 : Real.exp (m - m') * Real.exp (-m) = Real.exp (-m') := by
    rw [← Real.exp_add]; congr 1; ring
  have h2 : ∀ j, Real.exp (s j - m') * w j = Real.exp (-m') * (Real.exp (s j) * w j) := by
    intro j
    rw [← mul_assoc, ← Real.exp_add]; congr 2; ring
  rw [← mul_assoc, h1, mul_add, Finset.mul_sum]
  congr 1
  exact Finset.sum_congr rfl (fun j _ => h2 j)

/-- The running weighted sum after a chunk, when the old one is `exp (-m) * S`. -/
theorem stepA_coe {n : ℕ} (m m' S : ℝ) (s v : Fin n → ℝ)
    (h : stepM (m : EReal) (fun j => ((s j : ℝ) : EReal)) = (m' : EReal)) :
    stepA (m : EReal) ((Real.exp (-m) * S : ℝ) : EReal) (fun j => ((s j : ℝ) : EReal))
        (fun j => ((v j : ℝ) : EReal))
      = ((Real.exp (-m') * (S + ∑ j, Real.exp (s j) * v j) : ℝ) : EReal) := by
  rw [stepA, h]
  simp only [← EReal.coe_sub, Ideal.exp_coe, ← EReal.coe_mul, coe_sum, ← EReal.coe_add]
  rw [real_step]

/-- The running normaliser after a chunk, when the old one is `exp (-m) * S`. -/
theorem stepL_coe {n : ℕ} (m m' S : ℝ) (s : Fin n → ℝ)
    (h : stepM (m : EReal) (fun j => ((s j : ℝ) : EReal)) = (m' : EReal)) :
    stepL (m : EReal) ((Real.exp (-m) * S : ℝ) : EReal) (fun j => ((s j : ℝ) : EReal))
      = ((Real.exp (-m') * (S + ∑ j, Real.exp (s j)) : ℝ) : EReal) := by
  rw [stepL, h]
  simp only [← EReal.coe_sub, Ideal.exp_coe, ← EReal.coe_mul, coe_sum, ← EReal.coe_add]
  have := real_step m m' S s (fun _ => 1)
  simp only [mul_one] at this
  rw [this]

/-- The first chunk's weighted sum: nothing to rescale. -/
theorem stepA_bot {n : ℕ} (m' : ℝ) (s v : Fin n → ℝ)
    (h : stepM ⊥ (fun j => ((s j : ℝ) : EReal)) = (m' : EReal)) :
    stepA ⊥ 0 (fun j => ((s j : ℝ) : EReal)) (fun j => ((v j : ℝ) : EReal))
      = ((Real.exp (-m') * (0 + ∑ j, Real.exp (s j) * v j) : ℝ) : EReal) := by
  rw [stepA, h, mul_zero, zero_add]
  simp only [← EReal.coe_sub, Ideal.exp_coe, ← EReal.coe_mul, coe_sum]
  have := real_step 0 m' 0 s v
  simp only [mul_zero, zero_add] at this
  rw [this, zero_add]

/-- The first chunk's normaliser: nothing to rescale. -/
theorem stepL_bot {n : ℕ} (m' : ℝ) (s : Fin n → ℝ)
    (h : stepM ⊥ (fun j => ((s j : ℝ) : EReal)) = (m' : EReal)) :
    stepL ⊥ 0 (fun j => ((s j : ℝ) : EReal))
      = ((Real.exp (-m') * (0 + ∑ j, Real.exp (s j)) : ℝ) : EReal) := by
  rw [stepL, h, mul_zero, zero_add]
  simp only [← EReal.coe_sub, Ideal.exp_coe, coe_sum]
  have := real_step 0 m' 0 s (fun _ => 1)
  simp only [mul_zero, zero_add, mul_one] at this
  rw [this, zero_add]

/-- A sum of shifted exponentials is the shift's factor times the unshifted sum. -/
theorem sum_exp_sub {n : ℕ} (M : ℝ) (s w : Fin n → ℝ) :
    ∑ j, Real.exp (s j - M) * w j = Real.exp (-M) * ∑ j, Real.exp (s j) * w j := by
  have := real_step 0 M 0 s w
  simp only [mul_zero, zero_add] at this
  exact this

/-! ## Four chunks -/

section Four
variable {n : ℕ} [NeZero n] (s v : Fin 4 → Fin n → ℝ)

/-- After the fourth chunk the normaliser and the weighted sum are the plain sums over all four chunks,
    both times `exp (-m)` for the (real) final maximum `m`. -/
theorem k4_coe : ∃ m : ℝ,
    kl4 (fun c j => ((s c j : ℝ) : EReal))
        = ((Real.exp (-m) * ∑ c, ∑ j, Real.exp (s c j) : ℝ) : EReal) ∧
    ka4 (fun c j => ((s c j : ℝ) : EReal)) (fun c j => ((v c j : ℝ) : EReal))
        = ((Real.exp (-m) * ∑ c, ∑ j, Real.exp (s c j) * v c j : ℝ) : EReal) := by
  obtain ⟨m1, h1⟩ := stepM_bot_real (s 0)
  obtain ⟨m2, h2⟩ := stepM_coe_real m1 (s 1)
  obtain ⟨m3, h3⟩ := stepM_coe_real m2 (s 2)
  obtain ⟨m4, h4⟩ := stepM_coe_real m3 (s 3)
  have hm1 : km1 (fun c j => ((s c j : ℝ) : EReal)) = (m1 : EReal) := h1
  have hm2 : km2 (fun c j => ((s c j : ℝ) : EReal)) = (m2 : EReal) := by rw [km2, hm1]; exact h2
  have hm3 : km3 (fun c j => ((s c j : ℝ) : EReal)) = (m3 : EReal) := by rw [km3, hm2]; exact h3
  have hl1 : kl1 (fun c j => ((s c j : ℝ) : EReal))
      = ((Real.exp (-m1) * (0 + ∑ j, Real.exp (s 0 j)) : ℝ) : EReal) := stepL_bot m1 (s 0) h1
  have hl2 : kl2 (fun c j => ((s c j : ℝ) : EReal))
      = ((Real.exp (-m2) * (0 + ∑ j, Real.exp (s 0 j) + ∑ j, Real.exp (s 1 j)) : ℝ) : EReal) := by
    rw [kl2, hm1, hl1]; exact stepL_coe m1 m2 _ (s 1) h2
  have hl3 : kl3 (fun c j => ((s c j : ℝ) : EReal))
      = ((Real.exp (-m3) * (0 + ∑ j, Real.exp (s 0 j) + ∑ j, Real.exp (s 1 j)
          + ∑ j, Real.exp (s 2 j)) : ℝ) : EReal) := by
    rw [kl3, hm2, hl2]; exact stepL_coe m2 m3 _ (s 2) h3
  have ha1 : ka1 (fun c j => ((s c j : ℝ) : EReal)) (fun c j => ((v c j : ℝ) : EReal))
      = ((Real.exp (-m1) * (0 + ∑ j, Real.exp (s 0 j) * v 0 j) : ℝ) : EReal) :=
    stepA_bot m1 (s 0) (v 0) h1
  have ha2 : ka2 (fun c j => ((s c j : ℝ) : EReal)) (fun c j => ((v c j : ℝ) : EReal))
      = ((Real.exp (-m2) * (0 + ∑ j, Real.exp (s 0 j) * v 0 j + ∑ j, Real.exp (s 1 j) * v 1 j) : ℝ)
          : EReal) := by
    rw [ka2, hm1, ha1]; exact stepA_coe m1 m2 _ (s 1) (v 1) h2
  have ha3 : ka3 (fun c j => ((s c j : ℝ) : EReal)) (fun c j => ((v c j : ℝ) : EReal))
      = ((Real.exp (-m3) * (0 + ∑ j, Real.exp (s 0 j) * v 0 j + ∑ j, Real.exp (s 1 j) * v 1 j
          + ∑ j, Real.exp (s 2 j) * v 2 j) : ℝ) : EReal) := by
    rw [ka3, hm2, ha2]; exact stepA_coe m2 m3 _ (s 2) (v 2) h3
  refine ⟨m4, ?_, ?_⟩
  · rw [kl4, hm3, hl3]
    refine (stepL_coe m3 m4 _ (s 3) h4).trans ?_
    rw [Fin.sum_univ_four, zero_add]
  · rw [ka4, hm3, ha3]
    refine (stepA_coe m3 m4 _ (s 3) (v 3) h4).trans ?_
    rw [Fin.sum_univ_four, zero_add]

/-- The streaming form's entry as a quotient of real sums. -/
theorem kernelRow_coe :
    kernelRow (fun c j => ((s c j : ℝ) : EReal)) (fun c j => ((v c j : ℝ) : EReal))
      = (((∑ c, ∑ j, Real.exp (s c j) * v c j) / (∑ c, ∑ j, Real.exp (s c j)) : ℝ) : EReal) := by
  obtain ⟨m, hl, ha⟩ := k4_coe s v
  have hS : 0 < ∑ c, ∑ j, Real.exp (s c j) :=
    Finset.sum_pos (fun c _ => Finset.sum_pos (fun j _ => Real.exp_pos _) Finset.univ_nonempty)
      Finset.univ_nonempty
  have hc : Real.exp (-m) ≠ 0 := (Real.exp_pos _).ne'
  rw [kernelRow, hl, ha, Ideal.div_coe (mul_ne_zero hc hS.ne'), ← EReal.coe_mul]
  congr 1
  rw [one_div, ← div_eq_mul_inv, mul_div_mul_left _ _ hc]

end Four

/-! ## The textbook form -/

/-- The textbook form's entry as the same quotient of real sums. -/
theorem refRow_coe {N : ℕ} [NeZero N] (s v : Fin N → ℝ) :
    refRow (fun k => ((s k : ℝ) : EReal)) (fun k => ((v k : ℝ) : EReal))
      = (((∑ k, Real.exp (s k) * v k) / (∑ k, Real.exp (s k)) : ℝ) : EReal) := by
  obtain ⟨M, hM⟩ := fold_real s
  have hS : 0 < ∑ k, Real.exp (s k) :=
    Finset.sum_pos (fun k _ => Real.exp_pos _) Finset.univ_nonempty
  have hc : Real.exp (-M) ≠ 0 := (Real.exp_pos _).ne'
  have hL : ∑ k, Real.exp (s k - M) = Real.exp (-M) * ∑ k, Real.exp (s k) := by
    have := sum_exp_sub M s (fun _ => 1)
    simp only [mul_one] at this
    exact this
  rw [refRow, hM, max_eq_right bot_le, zero_add]
  simp only [← EReal.coe_sub, Ideal.exp_coe, coe_sum]
  rw [hL]
  simp only [Ideal.div_coe (mul_ne_zero hc hS.ne'), ← EReal.coe_mul, coe_sum]
  congr 1
  have hk : ∀ k, Real.exp (s k - M) * (1 / (Real.exp (-M) * ∑ k, Real.exp (s k))) * v k
      = Real.exp (s k - M) * v k / (Real.exp (-M) * ∑ k, Real.exp (s k)) := by
    intro k; ring
  rw [Finset.sum_congr rfl (fun k _ => hk k), ← Finset.sum_div, sum_exp_sub,
    mul_div_mul_left _ _ hc]

/-! ## The two forms agree -/

/-- With the keys split into four chunks by `e`, the streaming form equals the textbook form at real
    scores and values. -/
theorem kernelRow_eq_refRow {n N : ℕ} [NeZero n] (e : Fin 4 × Fin n ≃ Fin N) (sr vr : Fin N → ℝ) :
    kernelRow (fun c j => ((sr (e (c, j)) : ℝ) : EReal)) (fun c j => ((vr (e (c, j)) : ℝ) : EReal))
      = refRow (fun k => ((sr k : ℝ) : EReal)) (fun k => ((vr k : ℝ) : EReal)) := by
  haveI : NeZero N := ⟨(Fin.pos (e (0, 0))).ne'⟩
  have h : ∀ g : Fin N → ℝ, ∑ c, ∑ j, g (e (c, j)) = ∑ k, g k := fun g => by
    rw [← Fintype.sum_prod_type (f := fun p => g (e p))]; exact Equiv.sum_comp e g
  rw [kernelRow_coe (fun c j => sr (e (c, j))) (fun c j => vr (e (c, j))), refRow_coe,
    h (fun k => Real.exp (sr k) * vr k), h (fun k => Real.exp (sr k))]

/-! ## Whole arrays -/

/-- The scale factor's bit pattern (that of 1/8) denotes a real number. -/
theorem scale_real : ∃ c : ℝ, Ideal.ofBits .f32 0x3E000000#32 = (c : EReal) := by
  show ∃ c : ℝ, Ideal.ieee 8 23 (0x3E000000#32 : BitVec 32) = (c : EReal)
  unfold Ideal.ieee
  simp only []
  rw [if_neg (by decide), if_neg (by decide)]
  exact ⟨_, rfl⟩

/-- On arrays with real entries the streaming attention equals the textbook attention. -/
theorem GK_eq_G_of_real (q k v : A4) (hq : ∀ i, ∃ x : ℝ, q i = (x : EReal))
    (hk : ∀ i, ∃ x : ℝ, k i = (x : EReal)) (hv : ∀ i, ∃ x : ℝ, v i = (x : EReal)) :
    GK q k v = G q k v := by
  choose qr hqr using hq
  choose kr hkr using hk
  choose vr hvr using hv
  obtain ⟨sc, hsc⟩ := scale_real
  funext i
  obtain ⟨b, h, r, d, rfl⟩ : ∃ (b : Fin 2) (h : Fin 16) (r : Fin 2048) (d : Fin 64), i = ix4 b h r d :=
    ⟨i 0, i 1, i 2, i 3, eq_ix4 i⟩
  rw [GK_ix4, G_ix4, attnK, attn]
  have hs : ∀ kk, score q k b h r kk
      = (((∑ f : Fin 64, qr (ix4 b h r f) * kr (ix4 b h kk f)) * sc : ℝ) : EReal) := by
    intro kk
    rw [score, hsc]
    simp only [hqr, hkr, ← EReal.coe_mul, coe_sum]
  simp only [hs, hvr]
  haveI : NeZero 512 := ⟨by decide⟩
  exact kernelRow_eq_refRow e512
    (fun kk => (∑ f : Fin 64, qr (ix4 b h r f) * kr (ix4 b h kk f)) * sc) (fun kk => vr (ix4 b h kk d))

end Cert.Attn

end
-- ==== Proof.RefSide.lean ====
/-
  The reference program computes the textbook attention `G`.

  The reference is a chain of nineteen array operations: the scaled scores (an inner product over the
  64 features times the scale), their row maximum, the exponentials of the scores minus that maximum,
  the row sum of the exponentials, the quotient, and the product with the values. Each lemma below
  reads one stage of that chain at an index whose coordinates are named, and the last one assembles
  the entry (b, h, r, d) of the result into `Cert.Attn.attn`.
-/
import proofs.«109168_j47029891891312_2_alg».proof.Proof.Gen.ReferenceIdeal.Read
import proofs.«109168_j47029891891312_2_alg».proof.Proof.Spec
import Idealize.ShloMosaic.Lib.ValueIdx
import Idealize.ShloMosaic.Lib.Pipeline.Value
import Idealize.ShloMosaic.PureOps.Ideal.Laws

noncomputable section

namespace Cert.RefSide

open Cert.ReferenceIdeal Cert.ReferenceIdeal.Gen Cert.ReferenceIdeal.Read Idealize.ShloMosaic
  Idealize.ShloMosaic.ValueIdx Cert.Attn

variable [Cert.ReferenceIdeal.Facts]

/-- The f32 pattern of negative infinity is the bottom of the extended reals. -/
theorem ofBits_neg_inf : Ideal.ofBits .f32 0xFF800000#32 = ⊥ := by simp [Ideal.ofBits, Ideal.ieee]

/-- An input array of the reference. -/
abbrev X : Type := (⟨S2x16x2048x64, .f32⟩ : BufTy).Contents (Elt Ideal)

/-- The scaled scores: entry (b, h, r, kk) is the inner product of query row `r` with key row `kk`,
    times the scale. -/
theorem v2_eq (x0 x1 : X) (b : Fin 2) (h : Fin 16) (r kk : Fin 2048) :
    val_main_v2 (F := Ideal) x0 x1 (ix4 b h r kk) = score x0 x1 b h r kk := by
  have el : ∀ e : Fin 64, lidx_main_v0 (ix4 b h r kk) e = ix4 b h r e := fun e =>
    funext fun a => Fin.ext (by match a with | ⟨0, _⟩ => rfl | ⟨1, _⟩ => rfl | ⟨2, _⟩ => rfl | ⟨3, _⟩ => rfl)
  have er : ∀ e : Fin 64, ridx_main_v0 (ix4 b h r kk) e = ix4 b h kk e := fun e =>
    funext fun a => Fin.ext (by match a with | ⟨0, _⟩ => rfl | ⟨1, _⟩ => rfl | ⟨2, _⟩ => rfl | ⟨3, _⟩ => rfl)
  rw [val_main_v2_apply, val_main_v0_apply, val_main_v1_apply, val_main_cst_apply]
  simp only [el, er, Ideal.mulf_def, Ideal.ofBits_def]
  rfl

/-- The row maximum: entry (b, h, r) is the fold of `max` from `⊥` over the scores of row `r`. -/
theorem v3_eq (x0 x1 : X) (b : Fin 2) (h : Fin 16) (r : Fin 2048) :
    val_main_v3 (F := Ideal) x0 x1 (ix3 b h r)
      = Finset.univ.fold max ⊥ (fun kk : Fin 2048 => score x0 x1 b h r kk) := by
  have hR : S2x16x2048x2048.Reduces [3] S2x16x2048 := by decide
  have key := Host.reduce_eq_fold_single (FloatOps.maximumf (F := Ideal) (φ := .f32))
    (val_main_v2 (F := Ideal) x0 x1) (val_main_cst_0 (F := Ideal))
    reducesTo_S2x16x2048x2048_S2x16x2048_d3 hR h_S_ (ix3 b h r)
  have hf : (val_main_v2 (F := Ideal) x0 x1 ∘ hR.lift (ix3 b h r))
      = fun kk : Fin 2048 => score x0 x1 b h r kk := by
    refine funext fun (kk : Fin 2048) => ?_
    have e : hR.lift (ix3 b h r) kk = ix4 b h r kk := funext fun a => Fin.ext (by
      match a with | ⟨0, _⟩ => rfl | ⟨1, _⟩ => rfl | ⟨2, _⟩ => rfl | ⟨3, _⟩ => rfl)
    show val_main_v2 (F := Ideal) x0 x1 (hR.lift (ix3 b h r) kk) = _
    rw [e, v2_eq]
  unfold val_main_v3
  refine key.trans ?_
  rw [val_main_cst_0_apply, Ideal.ofBits_def, ofBits_neg_inf, hf]
  rfl

/-- The maximum the reference subtracts, broadcast back along the keys: the larger of `⊥` and the
    row maximum. -/
theorem v7_eq (x0 x1 : X) (b : Fin 2) (h : Fin 16) (r kk : Fin 2048) :
    val_main_v7 (F := Ideal) x0 x1 (ix4 b h r kk)
      = max ⊥ (Finset.univ.fold max ⊥ (fun k' : Fin 2048 => score x0 x1 b h r k')) := by
  have e : idx_main_v6 (idx_main_v7 (ix4 b h r kk)) = ix3 b h r := funext fun a => Fin.ext (by
    match a with | ⟨0, _⟩ => rfl | ⟨1, _⟩ => rfl | ⟨2, _⟩ => rfl)
  rw [val_main_v7_apply, val_main_v6_apply, val_main_v5_apply, val_main_v4_apply, val_main_cst_1_apply,
    e, v3_eq]
  simp only [Ideal.maximumf_def, Ideal.ofBits_def, ofBits_neg_inf]

/-- The exponentials: entry (b, h, r, kk) is `exp` of the score minus the maximum. -/
theorem v9_eq (x0 x1 : X) (b : Fin 2) (h : Fin 16) (r kk : Fin 2048) :
    val_main_v9 (F := Ideal) x0 x1 (ix4 b h r kk)
      = Ideal.exp (score x0 x1 b h r kk
          - max ⊥ (Finset.univ.fold max ⊥ (fun k' : Fin 2048 => score x0 x1 b h r k'))) := by
  rw [val_main_v9_apply, val_main_v8_apply, v2_eq, v7_eq]
  simp only [Ideal.hostUnary_exp_def, Ideal.subf_def]

/-- The normaliser: entry (b, h, r) is zero plus the sum of the row's exponentials. -/
theorem v10_eq (x0 x1 : X) (b : Fin 2) (h : Fin 16) (r : Fin 2048) :
    val_main_v10 (F := Ideal) x0 x1 (ix3 b h r)
      = 0 + ∑ k' : Fin 2048, Ideal.exp (score x0 x1 b h r k'
          - max ⊥ (Finset.univ.fold max ⊥ (fun k'' : Fin 2048 => score x0 x1 b h r k''))) := by
  rw [val_main_v10_apply, val_main_cst_2_apply, Ideal.ofBits_def, Ideal.ofBits_zero_f32]
  refine congrArg (0 + ·) (Finset.sum_congr rfl fun k' _ => ?_)
  have e : idx_main_v10 (ix3 b h r) k' = ix4 b h r k' := funext fun a => Fin.ext (by
    match a with | ⟨0, _⟩ => rfl | ⟨1, _⟩ => rfl | ⟨2, _⟩ => rfl | ⟨3, _⟩ => rfl)
  rw [e, v9_eq]

/-- The softmax weights: entry (b, h, r, kk) is the exponential over the normaliser. -/
theorem v13_eq (x0 x1 : X) (b : Fin 2) (h : Fin 16) (r kk : Fin 2048) :
    val_main_v13 (F := Ideal) x0 x1 (ix4 b h r kk)
      = Ideal.div
          (Ideal.exp (score x0 x1 b h r kk
            - max ⊥ (Finset.univ.fold max ⊥ (fun k' : Fin 2048 => score x0 x1 b h r k'))))
          (0 + ∑ k' : Fin 2048, Ideal.exp (score x0 x1 b h r k'
            - max ⊥ (Finset.univ.fold max ⊥ (fun k'' : Fin 2048 => score x0 x1 b h r k'')))) := by
  have e : idx_main_v11 (idx_main_v12 (ix4 b h r kk)) = ix3 b h r := funext fun a => Fin.ext (by
    match a with | ⟨0, _⟩ => rfl | ⟨1, _⟩ => rfl | ⟨2, _⟩ => rfl)
  rw [val_main_v13_apply, val_main_v12_apply, val_main_v11_apply, e, v10_eq, v9_eq]
  simp only [Ideal.hostDivf_def]

/-- The reference's result is the textbook attention: at (b, h, r, d) it is the sum over the keys of
    the softmax weight times the value. -/
theorem ref_eq_G (x0 x1 x2 : (⟨Cert.ReferenceIdeal.S2x16x2048x64, .f32⟩ : BufTy).Contents (Elt Ideal)) :
    Cert.ReferenceIdeal.Read.val_main_v14 (F := Ideal) x0 x1 x2 = Cert.Attn.G x0 x1 x2 := by
  funext i
  obtain ⟨b, h, r, d, rfl⟩ : ∃ (b : Fin 2) (h : Fin 16) (r : Fin 2048) (d : Fin 64), i = ix4 b h r d :=
    ⟨i 0, i 1, i 2, i 3, eq_ix4 i⟩
  rw [G_ix4, val_main_v14_apply]
  unfold attn refRow
  refine Finset.sum_congr rfl fun kk _ => ?_
  have el : lidx_main_v14 (ix4 b h r d) kk = ix4 b h r kk := funext fun a => Fin.ext (by
    match a with | ⟨0, _⟩ => rfl | ⟨1, _⟩ => rfl | ⟨2, _⟩ => rfl | ⟨3, _⟩ => rfl)
  have er : ridx_main_v14 (ix4 b h r d) kk = ix4 b h kk d := funext fun a => Fin.ext (by
    match a with | ⟨0, _⟩ => rfl | ⟨1, _⟩ => rfl | ⟨2, _⟩ => rfl | ⟨3, _⟩ => rfl)
  rw [el, er, v13_eq]

end Cert.RefSide

end
-- ==== Proof.Finite.lean ====
/-
  The precondition says every input entry is a real number.

  The precondition is three `jnp.all (|x| < +inf)`, one per input array, joined by `and`. When it
  comes out 1, each conjunct is 1, so every entry of each array passes the comparison; and an extended
  real whose absolute value `max x (-x)` lies strictly below `⊤` is neither `⊤` nor `⊥`: it is a real.
-/
import proofs.«109168_j47029891891312_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The f32 pattern of positive infinity is the top of the extended reals. -/
theorem ofBits_pos_inf : Ideal.ofBits .f32 0x7F800000#32 = ⊤ := by simp [Ideal.ofBits, Ideal.ieee]

/-- An extended real whose absolute value compares strictly below `⊤` is a real. -/
theorem real_of_abs_lt (x : EReal) (h : Ideal.cmp .olt (max x (-x)) ⊤ = 1#1) : ∃ r : ℝ, x = (r : EReal) := by
  induction x using EReal.rec with
  | bot => exfalso; simp [Ideal.cmp] at h
  | coe r => exact ⟨r, rfl⟩
  | top => exfalso; simp [Ideal.cmp] at h

/-- One array: if the `and` over all entries of `|x| < +inf` is 1, every entry is a real. -/
theorem all_real [Facts] (x : FVec Ideal S2x16x2048x64 .f32)
    (h : Host.reduce IntOp.andi
        (cmpf .olt (Host.absf x)
          (broadcastInDim S2x16x2048x64 ![] Facts.bcast_S_S2x16x2048x64 (constant (F := Ideal) S_ .f32 0x7F800000#32)))
        (constantI S_ 1 1#1) Facts.reducesTo_S2x16x2048x64_S_d0_1_2_3 Facts.h_S_ ix0 = 1#1) :
    ∀ i, ∃ r : ℝ, x i = (r : EReal) := by
  intro i
  have e := Host.reduce_andi_all _ _ _ _ _ h i
  have hb : broadcastInDim S2x16x2048x64 ![] Facts.bcast_S_S2x16x2048x64
      (constant (F := Ideal) S_ .f32 0x7F800000#32) i = ⊤ :=
    (broadcastInDim_apply _ Facts.bcast_S_S2x16x2048x64 _ i ix0 (fun a => a.elim0)).trans ofBits_pos_inf
  rw [cmpf_apply, hb] at e
  exact real_of_abs_lt (x i) e

theorem real_of_fn [Cert.Pre_finite_inputs.Facts] (x0 x1 x2 : FVec Ideal Cert.Pre_finite_inputs.S2x16x2048x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn] at h0
  obtain ⟨h01, h2⟩ := IntOp.andi_eq_one.1 h0
  obtain ⟨h0', h1⟩ := IntOp.andi_eq_one.1 h01
  exact ⟨all_real x0 h0', all_real x1 h1, all_real x2 h2⟩

end Cert.Finite

end
-- ==== Proof.HostGlue.lean ====
/-
  The host operations around the region: @main reshapes each [2, 16, 2048, 64] argument to [32, 2048, 64] before the
  region (batch b and head h become the single leading coordinate 16 b + h) and reshapes the region's result back.
  Read at an index, a reshape keeps the row-major position.
-/
import proofs.«109168_j47029891891312_2_alg».proof.Proof.Gen.KernelIdeal.Frame
import Idealize.ShloMosaic.Lib.ValueIdx
import Idealize.ShloMosaic.Lib.Pipeline.Value
import Idealize.ShloMosaic.Lib.StableHlo.Run

noncomputable section

namespace Cert.KHost

open Idealize.ShloMosaic Idealize.ShloMosaic.TcCoe Idealize.ShloMosaic.ValueIdx Idealize.SL.Sem Idealize.ShloMosaic.StableHlo
open Cert.KernelIdeal Cert.KernelIdeal.Gen

variable [Cert.KernelIdeal.Facts]

/-! ## A reshape read at an index -/

/-- [2, 16, 2048, 64] viewed as [32, 2048, 64]: entry (bh, r, e) is entry (bh / 16, bh % 16, r, e). -/
theorem merge_apply {α : Type} (x : S2x16x2048x64.Idx → α) (b : Fin 2) (h : Fin 16) (r : Fin 2048) (e : Fin 64) (bh : Fin 32)
    (hbh : bh.val = 16 * b.val + h.val) :
    shapeCast S32x2048x64 x Facts₀.shapeCasts_S2x16x2048x64_S32x2048x64 (ix3 bh r e) = x (ix4 b h r e) := by
  refine shapeCast_apply x _ (ix3 bh r e) (ix4 b h r e) ?_
  rw [Shape.rowMajor_val_four, Shape.rowMajor_val_three]
  show ((b.val * 16 + h.val) * 2048 + r.val) * 64 + e.val = (bh.val * 2048 + r.val) * 64 + e.val
  rw [hbh]; ring

/-- [32, 2048, 64] viewed as [2, 16, 2048, 64]: entry (b, h, r, d) is entry (16 b + h, r, d). -/
theorem split_apply {α : Type} (y : S32x2048x64.Idx → α) (b : Fin 2) (h : Fin 16) (r : Fin 2048) (d : Fin 64) (bh : Fin 32)
    (hbh : bh.val = 16 * b.val + h.val) :
    shapeCast S2x16x2048x64 y Facts₀.shapeCasts_S32x2048x64_S2x16x2048x64 (ix4 b h r d) = y (ix3 bh r d) := by
  refine shapeCast_apply y _ (ix4 b h r d) (ix3 bh r d) ?_
  rw [Shape.rowMajor_val_four, Shape.rowMajor_val_three]
  show (bh.val * 2048 + r.val) * 64 + d.val = ((b.val * 16 + h.val) * 2048 + r.val) * 64 + d.val
  rw [hbh]; ring

/-! ## The arrays the region finds -/

variable (m : (ℓ : Loc nD τ sig) → Buf (Elt Ideal) ℓ)

theorem V_main_v0 (c : Dev nD) :
    (V m c main_v0 : S32x2048x64.Idx → EReal)
      = shapeCast S32x2048x64 (m ((c.tc : Thread nD τ).loc main_arg0)) Facts₀.shapeCasts_S2x16x2048x64_S32x2048x64 := by
  show StableHlo.after hostOps0 (fun b => m (c, b)) (Proc.devRef .tc main_v0) = _
  after_results
  rfl

theorem V_main_v1 (c : Dev nD) :
    (V m c main_v1 : S32x2048x64.Idx → EReal)
      = shapeCast S32x2048x64 (m ((c.tc : Thread nD τ).loc main_arg1)) Facts₀.shapeCasts_S2x16x2048x64_S32x2048x64 := by
  show StableHlo.after hostOps0 (fun b => m (c, b)) (Proc.devRef .tc main_v1) = _
  after_results
  rfl

theorem V_main_v2 (c : Dev nD) :
    (V m c main_v2 : S32x2048x64.Idx → EReal)
      = shapeCast S32x2048x64 (m ((c.tc : Thread nD τ).loc main_arg2)) Facts₀.shapeCasts_S2x16x2048x64_S32x2048x64 := by
  show StableHlo.after hostOps0 (fun b => m (c, b)) (Proc.devRef .tc main_v2) = _
  after_results
  rfl

/-! ## The result after the region -/

/-- @main's result is the region's result array, reshaped. -/
theorem tail_main_v4 (c : Dev nD) :
    (Pipeline.afterTail₀ cfgs (dats m) 0 (V0 m) [hostOps1] c main_v4 : S2x16x2048x64.Idx → EReal)
      = shapeCast S2x16x2048x64 ((dats m 0 c).arrAt 3 cfg0.N) Facts₀.shapeCasts_S32x2048x64_S2x16x2048x64 := by
  unfold Pipeline.afterTail₀
  show StableHlo.after hostOps1 _ (Proc.devRef .tc main_v4) = _
  after_results
  refine (?_ : _ = shapeCast S2x16x2048x64 (Pipeline.withArrays (cfgs 0).spec c (V0 m c) (fun w => (dats m 0 c).arrAt w (cfgs 0).N)
      (Proc.devRef .tc (Pipeline.arrRef spec0 3))) Facts₀.shapeCasts_S32x2048x64_S2x16x2048x64).trans ?_
  · rfl
  · rw [Pipeline.withArrays_arr spec0 launch0.win.arr_inj c _ _ 3]

end Cert.KHost

end
-- ==== Proof.StepReadLayout.lean ====
/-
  Layout, reduction and contraction operations of one chunk step, read at an index given by coordinates.

  A [1, 512, 64] block seen as a [512, 64] matrix, a length-512 vector seen as a [512, 1] column, a column
  broadcast along the second axis, the maximum and the sum along the rows of a [512, 512] matrix, and the two
  matrix products of the step (scores: queries against keys, both contracted over the 64 features; values:
  weights against values, contracted over the 512 keys of the chunk).
-/
import proofs.«109168_j47029891891312_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KStep

open Idealize.ShloMosaic Idealize.ShloMosaic.ValueIdx Cert.KernelIdeal Cert.KernelIdeal.Gen

/-! ## Layout -/

section Layout
variable {α : Type}

/-- A length-`a` vector cast to an `[a, 1]` column reads, at `(r, 0)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column at `(r, 0)`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## The two float patterns of the step -/

/-- The pattern `0xFF800000` is the extended real `⊥`. -/
theorem ofBits_neg_inf_f32 : Ideal.ofBits .f32 0xFF800000#32 = ⊥ := by simp [Ideal.ofBits, Ideal.ieee]

/-! ## The reductions along a row -/

/-- The maximum along the rows of a [512, 512] matrix, at row `r`: the fold of `max` from `⊥` over the row. -/
theorem rowMax_apply (src : FVec Ideal S512x512 .f32) (r : Fin 512) :
    multiReduction .maximumf [1] S512 src 0xFF800000#32 reduces_S512x512_S512 (.inl rfl) rfl (ix1 r)
      = Finset.univ.fold max ⊥ (fun j : Fin 512 => src (ix2 r j)) := by
  refine (Ideal.multiReduction_maximumf_single src 0xFF800000#32 reduces_S512x512_S512 (.inl rfl) rfl (ix1 r)).trans ?_
  have hb : (FloatOps.ofBits .f32 0xFF800000#32 : Ideal .f32) = ⊥ := ofBits_neg_inf_f32
  have hf : (src ∘ reduces_S512x512_S512.lift (ix1 r)) = fun j : Fin 512 => src (ix2 r j) :=
    funext fun j => congrArg src (funext fun a => Fin.ext (by
      match a with
      | ⟨0, _⟩ => rfl
      | ⟨1, _⟩ => rfl))
  rw [hb, hf]
  rfl

/-- The sum along the rows of a [512, 512] matrix, at row `r`: the sum over the row. -/
theorem rowSum_apply (src : FVec Ideal S512x512 .f32) (r : Fin 512) :
    multiReduction .add [1] S512 src 0x00000000#32 reduces_S512x512_S512 (.inl rfl) rfl (ix1 r)
      = ∑ j : Fin 512, src (ix2 r j) := by
  refine (Ideal.multiReduction_add_single src 0x00000000#32 reduces_S512x512_S512 (.inl rfl) rfl (ix1 r)).trans ?_
  refine Finset.sum_congr rfl fun j _ => congrArg src (funext fun a => Fin.ext (by
    match a with
    | ⟨0, _⟩ => rfl
    | ⟨1, _⟩ => rfl))

/-! ## The two matrix products -/

section Scores

/-- The scores' dimension numbers read a left operand index: the row is the output's row … -/
theorem scoresLhs_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
/-- … and the feature is the contraction coordinate. -/
theorem scoresLhs_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
/-- A right operand index: the row is the output's column … -/
theorem scoresRhs_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
/-- … and the feature is the contraction coordinate. -/
theorem scoresRhs_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- Scores: the product of a [512, 64] matrix with the transpose of another, both contracted over their second
    axis, into a zero accumulator: at `(r, j)` the inner product of row `r` of the first with row `j` of the second. -/
theorem matmulRows_apply (x y : FVec Ideal S512x64 .bf16) (r j : Fin 512) :
    matmul dot_S512x64_S512x64_S512x512_1_1_0_0_n_n none x y (constant S512x512 .f32 0x00000000#32) (ix2 r j)
      = ∑ e : Fin 64, x (ix2 r e) * y (ix2 j e) := by
  simp only [matmul]
  rw [Ideal.matmul_constant_zero_apply, ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 r j) ((contrEquiv1 dot_S512x64_S512x64_S512x512_1_1_0_0_n_n 64 rfl rfl).symm k) = ix2 r k :=
    funext fun a => Fin.ext (by
      match a with
      | ⟨0, _⟩ => exact scoresLhs_0 _ _
      | ⟨1, _⟩ => exact (scoresLhs_1 _ _).trans hk)
  have er : dot_S512x64_S512x64_S512x512_1_1_0_0_n_n.rhsIdx (ix2 r j) ((contrEquiv1 dot_S512x64_S512x64_S512x512_1_1_0_0_n_n 64 rfl rfl).symm k) = ix2 j k :=
    funext fun a => Fin.ext (by
      match a with
      | ⟨0, _⟩ => exact scoresRhs_0 _ _
      | ⟨1, _⟩ => exact (scoresRhs_1 _ _).trans hk)
  rw [el, er]

end Scores

section Values

/-- The values' dimension numbers read a left operand index: the row is the output's row … -/
theorem valuesLhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
/-- … and the key is the contraction coordinate. -/
theorem valuesLhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
/-- A right operand index: the key is the contraction coordinate … -/
theorem valuesRhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
/-- … and the feature is the output's column. -/
theorem valuesRhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- Values: the product of a [512, 512] matrix with a [512, 64] one into a zero accumulator: at `(r, d)` the sum
    over `j` of the first at `(r, j)` times the second at `(j, d)`. -/
theorem matmulPlain_apply (p : FVec Ideal S512x512 .bf16) (v : FVec Ideal S512x64 .bf16) (r : Fin 512) (d : Fin 64) :
    matmul dot_S512x512_S512x64_S512x64_1_0_0_1_n_n none p v (constant S512x64 .f32 0x00000000#32) (ix2 r d)
      = ∑ j : Fin 512, p (ix2 r j) * v (ix2 j d) := by
  simp only [matmul]
  rw [Ideal.matmul_constant_zero_apply, ← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 r d) ((contrEquiv1 dot_S512x512_S512x64_S512x64_1_0_0_1_n_n 512 rfl rfl).symm k) = ix2 r k :=
    funext fun a => Fin.ext (by
      match a with
      | ⟨0, _⟩ => exact valuesLhs_0 _ _
      | ⟨1, _⟩ => exact (valuesLhs_1 _ _).trans hk)
  have er : dot_S512x512_S512x64_S512x64_1_0_0_1_n_n.rhsIdx (ix2 r d) ((contrEquiv1 dot_S512x512_S512x64_S512x64_1_0_0_1_n_n 512 rfl rfl).symm k) = ix2 k d :=
    funext fun a => Fin.ext (by
      match a with
      | ⟨0, _⟩ => exact (valuesRhs_0 _ _).trans hk
      | ⟨1, _⟩ => exact valuesRhs_1 _ _)
  rw [el, er]

end Values

end Cert.KStep

end
-- ==== Proof.StepRead.lean ====
/-
  One chunk step of the streaming attention, read at an index.

  The step's arithmetic on a [512, 64] block of queries `q`, a chunk of 512 keys `kc` and values `vc`, and the
  running maximum `m`, normaliser `l` and weighted sum `a`: the scores of row `r` against the chunk's keys are
  `rowScore q kc r`; the new maximum is `stepM`, the new normaliser `stepL` and the new weighted sum `stepA` of
  the old ones and those scores, each at its own row (and feature). The last step divides the weighted sum by the
  normaliser.
-/
import proofs.«109168_j47029891891312_2_alg».proof.Proof.Gen.KernelIdeal.Skeleton
import proofs.«109168_j47029891891312_2_alg».proof.Proof.Spec
import proofs.«109168_j47029891891312_2_alg».proof.Proof.StepReadLayout
import Idealize.ShloMosaic.Lib.ValueIdx
import Idealize.ShloMosaic.Lib.Pipeline.Value
import Idealize.ShloMosaic.Lib.ValueLayout
import Idealize.ShloMosaic.PureOps.Ideal.Laws

noncomputable section

namespace Cert.KStep

open Idealize.ShloMosaic Idealize.ShloMosaic.ValueIdx Cert.KernelIdeal Cert.KernelIdeal.Gen Cert.Attn

variable [Cert.KernelIdeal.Facts]

/-- Row r of the query block against key j of a chunk: their inner product over the 64 features, scaled. -/
def rowScore (q : FVec Ideal S512x64 .bf16) (kc : Vec Ideal S1x512x64 .f32) (r j : Fin 512) : EReal :=
  (∑ e : Fin 64, q (ix2 r e) * kc (ix3 (0 : Fin 1) j e)) * Ideal.ofBits .f32 0x3E000000#32

/-! ## The scores -/

/-- The scaled product of the queries with the chunk's keys, at `(r, j)`, is the score of row `r` against key `j`. -/
theorem pay10_apply (q : FVec Ideal S512x64 .bf16) (kc : Vec Ideal S1x512x64 .f32) (r j : Fin 512) :
    k0_pay10 (F := Ideal) q kc (ix2 r j) = rowScore q kc r j := by
  unfold k0_pay10 rowScore
  refine (mulf_apply _ _ (ix2 r j)).trans ?_
  refine congrArg (· * Ideal.ofBits .f32 0x3E000000#32) ?_
  refine (matmulRows_apply q _ r j).trans ?_
  exact Finset.sum_congr rfl fun e _ => congrArg (q (ix2 r e) * ·) (shapeCast_1ab_ab_apply kc _ j e)

/-- The same product as the last chunk's step writes it. -/
theorem pay17_apply (q : FVec Ideal S512x64 .bf16) (kc : Vec Ideal S1x512x64 .f32) (r j : Fin 512) :
    k0_pay17 (F := Ideal) q kc (ix2 r j) = rowScore q kc r j := by
  unfold k0_pay17 rowScore
  refine (mulf_apply _ _ (ix2 r j)).trans ?_
  refine congrArg (· * Ideal.ofBits .f32 0x3E000000#32) ?_
  refine (matmulRows_apply q _ r j).trans ?_
  exact Finset.sum_congr rfl fun e _ => congrArg (q (ix2 r e) * ·) (shapeCast_1ab_ab_apply kc _ j e)

/-! ## The running maximum -/

/-- The chunk's row maximum, kept as a column. -/
theorem pay18_apply (q : FVec Ideal S512x64 .bf16) (kc : Vec Ideal S1x512x64 .f32) (r : Fin 512) :
    k0_pay18 (F := Ideal) q kc (ix2 r (0 : Fin 1)) = Finset.univ.fold max ⊥ (rowScore q kc r) := by
  unfold k0_pay18
  refine (shapeCast_a_a1_apply _ _ r (0 : Fin 1)).trans ?_
  refine (rowMax_apply _ r).trans ?_
  exact congrArg (fun f => Finset.univ.fold max ⊥ f) (funext fun j => pay17_apply q kc r j)

/-- The new running maximum: the larger of the old one and the chunk's row maximum. -/
theorem pay11_apply (q : FVec Ideal S512x64 .bf16) (m : FVec Ideal S512x1 .f32) (kc : Vec Ideal S1x512x64 .f32) (r : Fin 512) :
    k0_pay11 (F := Ideal) q m kc (ix2 r (0 : Fin 1)) = stepM (m (ix2 r (0 : Fin 1))) (rowScore q kc r) := by
  unfold k0_pay11 stepM
  refine (maximumf_apply _ _ _).trans ?_
  refine congrArg (max (m (ix2 r (0 : Fin 1)))) ?_
  refine (shapeCast_a_a1_apply _ _ r (0 : Fin 1)).trans ?_
  refine (rowMax_apply _ r).trans ?_
  exact congrArg (fun f => Finset.univ.fold max ⊥ f) (funext fun j => pay10_apply q kc r j)

/-! ## The rescaling factor and the weights -/

/-- The factor that rescales the old normaliser and weighted sum: `exp (m_old - m_new)`. -/
theorem pay12_apply (q : FVec Ideal S512x64 .bf16) (m : FVec Ideal S512x1 .f32) (kc : Vec Ideal S1x512x64 .f32) (r : Fin 512) :
    k0_pay12 (F := Ideal) q m kc (ix2 r (0 : Fin 1))
      = Ideal.exp (m (ix2 r (0 : Fin 1)) - stepM (m (ix2 r (0 : Fin 1))) (rowScore q kc r)) := by
  unfold k0_pay12
  refine (Ideal.exp_def _).trans (congrArg Ideal.exp ?_)
  refine (subf_apply _ _ _).trans ?_
  exact congrArg (m (ix2 r (0 : Fin 1)) - ·) (pay11_apply q m kc r)

/-- The chunk's weights: `exp (score - m_new)`. -/
theorem pay13_apply (q : FVec Ideal S512x64 .bf16) (m : FVec Ideal S512x1 .f32) (kc : Vec Ideal S1x512x64 .f32) (r j : Fin 512) :
    k0_pay13 (F := Ideal) q m kc (ix2 r j)
      = Ideal.exp (rowScore q kc r j - stepM (m (ix2 r (0 : Fin 1))) (rowScore q kc r)) := by
  unfold k0_pay13
  refine (Ideal.exp_def _).trans (congrArg Ideal.exp ?_)
  refine (subf_apply _ _ _).trans ?_
  exact congrArg₂ (· - ·) (pay10_apply q kc r j) ((broadcastTo_a1_ab_apply _ _ r j).trans (pay11_apply q m kc r))

/-! ## The running normaliser and weighted sum -/

/-- The new normaliser: the old one rescaled plus the sum of the chunk's weights. -/
theorem pay14_apply (q : FVec Ideal S512x64 .bf16) (m l : FVec Ideal S512x1 .f32) (kc : Vec Ideal S1x512x64 .f32) (r : Fin 512) :
    k0_pay14 (F := Ideal) q m l kc (ix2 r (0 : Fin 1))
      = stepL (m (ix2 r (0 : Fin 1))) (l (ix2 r (0 : Fin 1))) (rowScore q kc r) := by
  unfold k0_pay14 stepL
  refine (addf_apply _ _ _).trans ?_
  refine congrArg₂ (· + ·) ?_ ?_
  · refine (mulf_apply _ _ _).trans ?_
    exact congrArg (· * l (ix2 r (0 : Fin 1))) (pay12_apply q m kc r)
  · refine (shapeCast_a_a1_apply _ _ r (0 : Fin 1)).trans ?_
    refine (rowSum_apply _ r).trans ?_
    exact Finset.sum_congr rfl fun j _ => pay13_apply q m kc r j

/-- The new weighted sum: the old one rescaled plus the chunk's weights times its values. -/
theorem pay15_apply (q : FVec Ideal S512x64 .bf16) (m : FVec Ideal S512x1 .f32) (a : FVec Ideal S512x64 .f32)
    (kc vc : Vec Ideal S1x512x64 .f32) (r : Fin 512) (d : Fin 64) :
    k0_pay15 (F := Ideal) q m a kc vc (ix2 r d)
      = stepA (m (ix2 r (0 : Fin 1))) (a (ix2 r d)) (rowScore q kc r) (fun j => vc (ix3 (0 : Fin 1) j d)) := by
  unfold k0_pay15 stepA
  refine (addf_apply _ _ _).trans ?_
  refine congrArg₂ (· + ·) ?_ ?_
  · refine (mulf_apply _ _ _).trans ?_
    exact congrArg (· * a (ix2 r d)) ((broadcastTo_a1_ab_apply _ _ r d).trans (pay12_apply q m kc r))
  · refine (matmulPlain_apply _ _ r d).trans ?_
    exact Finset.sum_congr rfl fun j _ =>
      congrArg₂ (· * ·) (pay13_apply q m kc r j) (shapeCast_1ab_ab_apply vc _ j d)

/-! ## The last division, the loaded queries and the initial values -/

/-- The output block: the weighted sum over the normaliser. -/
theorem pay1_apply (a l : FVec Ideal S512x64 .f32) (r : Fin 512) (d : Fin 64) :
    k0_pay1 (F := Ideal) a l (ix3 (0 : Fin 1) r d) = Ideal.div (a (ix2 r d)) (l (ix2 r d)) := by
  unfold k0_pay1
  exact (shapeCast_ab_1ab_apply (divf a l) _ (0 : Fin 1) r d).trans (divf_apply a l _)

/-- The query block as a matrix. -/
theorem pay2_apply (v0 : Vec Ideal S1x512x64 .f32) (r : Fin 512) (e : Fin 64) :
    k0_pay2 (F := Ideal) v0 (ix2 r e) = v0 (ix3 (0 : Fin 1) r e) := by
  unfold k0_pay2
  exact shapeCast_1ab_ab_apply v0 _ r e

/-- The initial running maximum is `⊥`. -/
theorem pay3_apply (r : Fin 512) : k0_pay3 (F := Ideal) (ix2 r (0 : Fin 1)) = ⊥ := by
  unfold k0_pay3
  exact ofBits_neg_inf_f32

/-- A column broadcast along the features reads the column at its row. -/
theorem bcast_col_apply (l : FVec Ideal S512x1 .f32) (r : Fin 512) (d : Fin 64) :
    broadcastTo S512x64 l broadcasts_S512x1_S512x64 (ix2 r d) = l (ix2 r (0 : Fin 1)) :=
  broadcastTo_a1_ab_apply l _ r d

/-- The initial normaliser is `0`. -/
theorem zero_col_apply (r : Fin 512) :
    (broadcast S512x1 (Scalar.ofBits (F := Ideal) .f32 0x00000000#32) : FVec Ideal S512x1 .f32) (ix2 r (0 : Fin 1)) = 0 :=
  Ideal.ofBits_zero_f32

/-- The initial weighted sum is `0`. -/
theorem zero_blk_apply (r : Fin 512) (d : Fin 64) :
    (broadcast S512x64 (Scalar.ofBits (F := Ideal) .f32 0x00000000#32) : FVec Ideal S512x64 .f32) (ix2 r d) = 0 :=
  Ideal.ofBits_zero_f32

end Cert.KStep

end
-- ==== Proof.BlockValue.lean ====
/-
  What the kernel body leaves in the output block, entry by entry.

  The body keeps, for each of its 512 query rows, a running maximum m, a running normaliser l and a running
  weighted sum a (one per feature), and updates them once per chunk of 512 keys: four updates, written out one after
  the other. Each update is the same three functions of (m, l, a) and of the chunk's keys and values; the first
  starts from m = -∞, l = 0, a = 0. The stored block is a / l. Read at entry (0, r, d) this is the streaming
  form of attention (`Cert.Attn.kernelRow`) of query row r against the 2048 keys, taken chunk by chunk.
-/
import proofs.«109168_j47029891891312_2_alg».proof.Proof.Gen.KernelIdeal.Frame
import proofs.«109168_j47029891891312_2_alg».proof.Proof.Spec
import proofs.«109168_j47029891891312_2_alg».proof.Proof.StepRead
import Idealize.ShloMosaic.Lib.ValueIdx
import Idealize.ShloMosaic.Lib.Pipeline.Value
import Idealize.ShloMosaic.PureOps.Ideal.Laws

noncomputable section

namespace Cert.KBlock

open Idealize.ShloMosaic Idealize.ShloMosaic.TcCoe Idealize.ShloMosaic.ValueIdx Idealize.SL.Sem Idealize.ShloMosaic.Tactic
open Cert.KernelIdeal Cert.KernelIdeal.Gen Cert.Attn Cert.KStep

variable [Cert.KernelIdeal.Facts]

theorem hz3 : (![0, 0, 0] : Fin 3 → Nat) = fun _ => 0 := funext fun a => by fin_cases a <;> rfl

/-! ## The body's pieces as repeated updates -/

section Normal
variable {F : FTy → Type} [FloatOps F]

/-- The column of zeros the normaliser starts from, and the block of zeros the weighted sum starts from. -/
abbrev zeroCol : FVec F S512x1 .f32 := broadcast S512x1 (Scalar.ofBits .f32 0x00000000#32)
abbrev zeroBlk : FVec F S512x64 .f32 := broadcast S512x64 (Scalar.ofBits .f32 0x00000000#32)

/-- The first chunk's maximum, normaliser and weighted sum are the general update from (-∞, 0, 0). -/
theorem first_max (v0 kc : Vec F S1x512x64 .f32) : k0_pay5 v0 kc = k0_pay11 (k0_pay2 v0) (k0_pay3 (F := F)) kc := rfl
theorem first_norm (v0 kc : Vec F S1x512x64 .f32) :
    k0_pay8 v0 kc = k0_pay14 (k0_pay2 v0) (k0_pay3 (F := F)) zeroCol kc := rfl
theorem first_acc (v0 kc vc : Vec F S1x512x64 .f32) :
    k0_pay9 v0 kc vc = k0_pay15 (k0_pay2 v0) (k0_pay3 (F := F)) zeroBlk kc vc := rfl

/-- The last two chunks' weighted sum is two general updates, one after the other. -/
theorem last_acc (q : FVec F S512x64 .bf16) (m : FVec F S512x1 .f32) (a : FVec F S512x64 .f32)
    (kc2 vc2 kc3 vc3 : Vec F S1x512x64 .f32) :
    k0_pay26 q m a (k0_pay16 vc2) (k0_pay17 q kc2) (k0_pay18 q kc2) kc3 vc3
      = k0_pay15 q (k0_pay11 q m kc2) (k0_pay15 q m a kc2 vc2) kc3 vc3 := rfl

/-- The last two chunks' normaliser likewise, then spread along the features. -/
theorem last_norm (q : FVec F S512x64 .bf16) (m l : FVec F S512x1 .f32) (kc2 kc3 : Vec F S1x512x64 .f32) :
    k0_pay27 q m l (k0_pay17 q kc2) (k0_pay18 q kc2) kc3
      = broadcastTo S512x64 (k0_pay14 q (k0_pay11 q m kc2) (k0_pay14 q m l kc2) kc3) broadcasts_S512x1_S512x64 := rfl

end Normal

/-! ## A chunk of the keys (or values) read out of the whole head -/

/-- Rows 512 c … 512 c + 511 of a [1, 2048, 64] block, read through the rectangle at offset (0, 512 c, 0). -/
theorem ld_chunk (x : Vec Ideal S1x2048x64 .f32) (k : Nat) (inb : ∀ a, (![0, k, 0] : Fin 3 → Nat) a + (![1, 512, 64] : Fin 3 → Nat) a ≤ S1x2048x64.size a)
    (c : Fin 4) (hk : k = 512 * c.val) (j : Fin 512) (e : Fin 64) :
    View.ld x (Rect.unit (s := S1x2048x64) ![0, k, 0] ![1, 512, 64] inb) (ix3 (0 : Fin 1) j e)
      = x (ix3 (0 : Fin 1) (e512 (c, j)) e) := by
  show x _ = x _
  refine congrArg x (funext fun a => Fin.ext ?_)
  match a with
  | ⟨0, _⟩ => rfl
  | ⟨1, _⟩ =>
    show k + 1 * j.val = (e512 (c, j)).val
    rw [e512_val, hk]; omega
  | ⟨2, _⟩ => show 0 + 1 * e.val = e.val; omega

/-- The scores of a query row against chunk c of the keys. -/
theorem score_chunk (x0 : Vec Ideal S1x512x64 .f32) (x1 : Vec Ideal S1x2048x64 .f32) (k : Nat)
    (inb : ∀ a, (![0, k, 0] : Fin 3 → Nat) a + (![1, 512, 64] : Fin 3 → Nat) a ≤ S1x2048x64.size a) (c : Fin 4) (hk : k = 512 * c.val) (r : Fin 512) :
    rowScore (k0_pay2 (F := Ideal) x0) (View.ld x1 (Rect.unit (s := S1x2048x64) ![0, k, 0] ![1, 512, 64] inb)) r
      = fun j => (∑ e : Fin 64, x0 (ix3 (0 : Fin 1) r e) * x1 (ix3 (0 : Fin 1) (e512 (c, j)) e)) * Ideal.ofBits .f32 0x3E000000#32 := by
  funext j
  unfold rowScore
  refine congrArg (· * _) (Finset.sum_congr rfl fun e _ => ?_)
  rw [pay2_apply, ld_chunk x1 k inb c hk]

/-! ## The block -/

/-- The streaming form, its twelve intermediate quantities written out. -/
theorem kernelRow_unfold {n : ℕ} (s v : Fin 4 → Fin n → EReal) :
    kernelRow s v
      = Ideal.div
          (stepA (stepM (stepM (stepM ⊥ (s 0)) (s 1)) (s 2))
            (stepA (stepM (stepM ⊥ (s 0)) (s 1)) (stepA (stepM ⊥ (s 0)) (stepA ⊥ 0 (s 0) (v 0)) (s 1) (v 1)) (s 2) (v 2)) (s 3) (v 3))
          (stepL (stepM (stepM (stepM ⊥ (s 0)) (s 1)) (s 2))
            (stepL (stepM (stepM ⊥ (s 0)) (s 1)) (stepL (stepM ⊥ (s 0)) (stepL ⊥ 0 (s 0)) (s 1)) (s 2)) (s 3)) := rfl

set_option backward.isDefEq.respectTransparency.types false in
theorem out_apply (c : Dev nD) (i : grid0.Coords) (arg2 : Memref sig .tc .vmem S1x512x64 .f32) (harg2 : arg2.IsWhole)
    (arg3 : Memref sig .tc .vmem S1x2048x64 .f32) (harg3 : arg3.IsWhole) (arg4 : Memref sig .tc .vmem S1x2048x64 .f32) (harg4 : arg4.IsWhole)
    (arg5 : Memref sig .tc .vmem S1x512x64 .f32) (harg5 : arg5.IsWhole)
    (x0 : Vec Ideal S1x512x64 .f32) (x1 : Vec Ideal S1x2048x64 .f32) (x2 : Vec Ideal S1x2048x64 .f32) (r : Fin 512) (d : Fin 64) :
    out0_A_3 (F := Ideal) c i arg2 harg2 arg3 harg3 arg4 harg4 arg5 harg5 x0 x1 x2 (ix3 (0 : Fin 1) r d)
      = kernelRow (fun cc j => (∑ e : Fin 64, x0 (ix3 (0 : Fin 1) r e) * x1 (ix3 (0 : Fin 1) (e512 (cc, j)) e)) * Ideal.ofBits .f32 0x3E000000#32)
          (fun cc j => x2 (ix3 (0 : Fin 1) (e512 (cc, j)) d)) := by
  unfold out0_A_3
  rw [View.read_writes_eq_canon _ _ _ (cover0_A_3 c i arg2 harg2 arg3 harg3 arg4 harg4 arg5 harg5 x0 x1 x2)]
  unfold kernelRun0_A
  dsimp only
  sl_unfold_words
  rw [View.canon_unit_zero hz3]
  simp only [View.readAt_eq_ld, harg2.read_unread, harg3.read_unread, harg4.read_unread, View.ld_unit_zero (S := S1x512x64) hz3]
  rw [first_max, first_norm, first_acc, last_acc, last_norm]
  rw [pay1_apply, bcast_col_apply]
  simp only [pay15_apply, pay14_apply, pay11_apply, pay3_apply, zero_col_apply, zero_blk_apply]
  rw [kernelRow_unfold]
  simp only [score_chunk x0 x1 0 _ 0 rfl, score_chunk x0 x1 512 _ 1 rfl, score_chunk x0 x1 1024 _ 2 rfl, score_chunk x0 x1 1536 _ 3 rfl,
    ld_chunk x2 0 _ 0 rfl, ld_chunk x2 512 _ 1 rfl, ld_chunk x2 1024 _ 2 rfl, ld_chunk x2 1536 _ 3 rfl]

end Cert.KBlock

end
-- ==== Proof.KernelArray.lean ====
/-
  From blocks to the array.

  The kernel's result is an array of shape [32, 2048, 64]: 32 heads, 2048 query rows, 64 features. The grid has
  32 * 4 points; point t = 4 * bh + i sees rows 512 * i … 512 * i + 511 of head bh of the query array, all 2048
  rows of head bh of the key and value arrays, and writes rows 512 * i … 512 * i + 511 of head bh of the result.
  Entry (0, r, d) of the block it writes is the streaming attention of query row r of its query block against its
  key and value blocks. Read at the arrays' own indices this is entry (bh, 512 * i + r, d) of ONE whole-array
  function, `G3`: the streaming attention of row (bh, 512 * i + r) of the query array against head bh of the key
  and value arrays. The 128 blocks tile the result array — row r' of head bh lies in the block of point
  4 * bh + r' / 512 —, so after the last point the result array holds `G3` of the three input arrays.
-/
import proofs.«109168_j47029891891312_2_alg».proof.Proof.BlockValue

noncomputable section

namespace Cert.KArray

open Idealize.ShloMosaic Idealize.ShloMosaic.TcCoe Idealize.ShloMosaic.ValueIdx Idealize.SL.Sem
open Cert.KernelIdeal Cert.KernelIdeal.Gen Cert.Attn

/-- An array of shape [32, 2048, 64] of extended reals. -/
abbrev A3 : Type := (⟨3, ![32, 2048, 64]⟩ : Shape).Idx → EReal

/-- Streaming attention on the [32, 2048, 64] layout: entry (bh, r, d). -/
def G3 (Q K V : A3) : A3 := fun i =>
  kernelRow (fun cc j => (∑ e : Fin 64, Q (ix3 (i 0) (i 1) e) * K (ix3 (i 0) (e512 (cc, j)) e)) * Ideal.ofBits .f32 0x3E000000#32)
    (fun cc j => V (ix3 (i 0) (e512 (cc, j)) (i 2)))

theorem G3_ix3 (Q K V : A3) (bh : Fin 32) (r : Fin 2048) (d : Fin 64) :
    G3 Q K V (ix3 bh r d) = kernelRow (fun cc j => (∑ e : Fin 64, Q (ix3 bh r e) * K (ix3 bh (e512 (cc, j)) e)) * Ideal.ofBits .f32 0x3E000000#32)
      (fun cc j => V (ix3 bh (e512 (cc, j)) d)) := rfl

/-! ## The index maps over the grid -/

/-- At grid point t = 4 * bh + i the query window and the result window are at block (bh, i, 0) and the key and
    value windows at block (bh, 0, 0), with bh = t / 4 and i = t % 4: decided over the 128 points. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

/-! ## Reading the input blocks

An element of a window's block sits in the window's array, on each axis, at the block index times the block's
extent plus its own coordinate. -/

variable (m : (ℓ : Loc nD τ sig) → Buf (Elt Ideal) ℓ)

/-- Entry (0, r, e) of the query block at point t is entry (t / 4, 512 * (t % 4) + r, e) of the query array. -/
theorem iblk0_apply (c : Dev nD) (t : Fin cfg0.N) (r : Fin 512) (e : Fin 64) (bh : Fin 32) (r' : Fin 2048)
    (hbh : bh.val = t.val / 4) (hr : r'.val = 512 * (t.val % 4) + r.val) :
    (iblk m c 0 t : Vec Ideal S1x512x64 .f32) (ix3 (0 : Fin 1) r e) = (V m c main_v0 : A3) (ix3 bh r' e) := by
  obtain ⟨h0, h1, h2, -⟩ := idx_facts t
  unfold iblk
  rw [View.read_apply]
  show V m c main_v0 (((cfg0.win 0).blk t).view.emb (ix3 (0 : Fin 1) r e)) = V m c main_v0 (ix3 bh r' e)
  refine congrArg (V m c main_v0) ?_
  funext a
  apply Fin.ext
  match a with
  | ⟨0, _⟩ => show win0_0.index t (0 : Fin 3) * 1 + 1 * (0 : Fin 1).val = bh.val; rw [h0, hbh]; simp
  | ⟨1, _⟩ => show win0_0.index t (1 : Fin 3) * 512 + 1 * r.val = r'.val; rw [h1, hr]; omega
  | ⟨2, _⟩ => show win0_0.index t (2 : Fin 3) * 64 + 1 * e.val = e.val; rw [h2]; omega

/-- Entry (0, kk, e) of the key block at point t is entry (t / 4, kk, e) of the key array: the block is the whole head. -/
theorem iblk1_apply (c : Dev nD) (t : Fin cfg0.N) (kk : Fin 2048) (e : Fin 64) (bh : Fin 32)
    (hbh : bh.val = t.val / 4) :
    (iblk m c 1 t : Vec Ideal S1x2048x64 .f32) (ix3 (0 : Fin 1) kk e) = (V m c main_v1 : A3) (ix3 bh kk e) := by
  obtain ⟨-, -, -, h0, h1, h2, -⟩ := idx_facts t
  unfold iblk
  rw [View.read_apply]
  show V m c main_v1 (((cfg0.win 1).blk t).view.emb (ix3 (0 : Fin 1) kk e)) = V m c main_v1 (ix3 bh kk e)
  refine congrArg (V m c main_v1) ?_
  funext a
  apply Fin.ext
  match a with
  | ⟨0, _⟩ => show win0_1.index t (0 : Fin 3) * 1 + 1 * (0 : Fin 1).val = bh.val; rw [h0, hbh]; simp
  | ⟨1, _⟩ => show win0_1.index t (1 : Fin 3) * 2048 + 1 * kk.val = kk.val; rw [h1]; omega
  | ⟨2, _⟩ => show win0_1.index t (2 : Fin 3) * 64 + 1 * e.val = e.val; rw [h2]; omega

/-- Entry (0, kk, e) of the value block at point t is entry (t / 4, kk, e) of the value array: the block is the whole head. -/
theorem iblk2_apply (c : Dev nD) (t : Fin cfg0.N) (kk : Fin 2048) (e : Fin 64) (bh : Fin 32)
    (hbh : bh.val = t.val / 4) :
    (iblk m c 2 t : Vec Ideal S1x2048x64 .f32) (ix3 (0 : Fin 1) kk e) = (V m c main_v2 : A3) (ix3 bh kk e) := by
  obtain ⟨-, -, -, -, -, -, h0, h1, h2, -⟩ := idx_facts t
  unfold iblk
  rw [View.read_apply]
  show V m c main_v2 (((cfg0.win 2).blk t).view.emb (ix3 (0 : Fin 1) kk e)) = V m c main_v2 (ix3 bh kk e)
  refine congrArg (V m c main_v2) ?_
  funext a
  apply Fin.ext
  match a with
  | ⟨0, _⟩ => show win0_2.index t (0 : Fin 3) * 1 + 1 * (0 : Fin 1).val = bh.val; rw [h0, hbh]; simp
  | ⟨1, _⟩ => show win0_2.index t (1 : Fin 3) * 2048 + 1 * kk.val = kk.val; rw [h1]; omega
  | ⟨2, _⟩ => show win0_2.index t (2 : Fin 3) * 64 + 1 * e.val = e.val; rw [h2]; omega

/-! ## What each point writes back -/

/-- Entry (0, r, d) of the result block at point t sits at entry (t / 4, 512 * (t % 4) + r, d) of the result array. -/
theorem emb3 (t : Fin cfg0.N) (r : Fin 512) (d : Fin 64) (bh : Fin 32) (r' : Fin 2048)
    (hbh : bh.val = t.val / 4) (hr : r'.val = 512 * (t.val % 4) + r.val) :
    ((cfg0.win 3).blk t).view.emb (ix3 (0 : Fin 1) r d) = ix3 bh r' d := by
  obtain ⟨-, -, -, -, -, -, -, -, -, h0, h1, h2⟩ := idx_facts t
  funext a
  apply Fin.ext
  match a with
  | ⟨0, _⟩ => show win0_3.index t (0 : Fin 3) * 1 + 1 * (0 : Fin 1).val = bh.val; rw [h0, hbh]; simp
  | ⟨1, _⟩ => show win0_3.index t (1 : Fin 3) * 512 + 1 * r.val = r'.val; rw [h1, hr]; omega
  | ⟨2, _⟩ => show win0_3.index t (2 : Fin 3) * 64 + 1 * d.val = d.val; rw [h2]; omega

/-- The streaming row of a query block's row r against a key block and a value block's column d is entry (bh, r', d)
    of `G3`, when the query block's row r is row (bh, r') of `Q` and the key and value blocks are head bh of `K` and `W`. -/
theorem kernelRow_blocks (x0 : Vec Ideal S1x512x64 .f32) (x1 x2 : Vec Ideal S1x2048x64 .f32) (Q K W : A3)
    (bh : Fin 32) (r : Fin 512) (r' : Fin 2048) (d : Fin 64)
    (h0 : ∀ e, x0 (ix3 (0 : Fin 1) r e) = Q (ix3 bh r' e))
    (h1 : ∀ kk e, x1 (ix3 (0 : Fin 1) kk e) = K (ix3 bh kk e))
    (h2 : ∀ kk, x2 (ix3 (0 : Fin 1) kk d) = W (ix3 bh kk d)) :
    kernelRow (fun cc j => (∑ e : Fin 64, x0 (ix3 (0 : Fin 1) r e) * x1 (ix3 (0 : Fin 1) (e512 (cc, j)) e)) * Ideal.ofBits .f32 0x3E000000#32)
        (fun cc j => x2 (ix3 (0 : Fin 1) (e512 (cc, j)) d))
      = G3 Q K W (ix3 bh r' d) := by
  rw [G3_ix3]
  simp only [h0, h1, h2]

/-- What point t writes back is block t of `G3` of the three input arrays. -/
theorem flushed_eq (c : Dev nD) (t : Fin cfg0.N) :
    (dats m 0 c).flushed 3 t = ((cfg0.win 3).blk t).view.read (Elt Ideal) (G3 (V m c main_v0) (V m c main_v1) (V m c main_v2)) := by
  show (cfg0.win 3).cut (grid0.coords t) ((dats m 0 c).after 3 t) = _
  rw [after0_3]
  unfold outsAt0
  have hN : cfg0.N = 128 := N_0
  have ht : t.val < 128 := by have := t.isLt; omega
  funext y
  obtain ⟨a, r, d, rfl⟩ : ∃ (a : Fin 1) (r : Fin 512) (d : Fin 64), y = ix3 a r d :=
    ⟨y 0, y 1, y 2, eq_ix3 (n0 := 1) (n1 := 512) (n2 := 64) y⟩
  obtain rfl : a = 0 := Subsingleton.elim _ _
  rw [View.read_apply, emb3 t r d ⟨t.val / 4, by omega⟩ ⟨512 * (t.val % 4) + r.val, by omega⟩ rfl rfl]
  refine (Cert.KBlock.out_apply c (grid0.coords t) (ms0_0 t) (hs0_0 t) (ms0_1 t) (hs0_1 t) (ms0_2 t) (hs0_2 t) (ms0_3 t) (hs0_3 t)
    (iblk m c 0 t) (iblk m c 1 t) (iblk m c 2 t) r d).trans ?_
  exact kernelRow_blocks (iblk m c 0 t) (iblk m c 1 t) (iblk m c 2 t) (V m c main_v0) (V m c main_v1) (V m c main_v2)
    ⟨t.val / 4, by omega⟩ r ⟨512 * (t.val % 4) + r.val, by omega⟩ d
    (fun e => iblk0_apply m c t r e _ _ rfl rfl) (fun kk e => iblk1_apply m c t kk e _ rfl) (fun kk => iblk2_apply m c t kk d _ rfl)

/-! ## The blocks tile the array -/

/-- An index of the result array is in point t's block iff each coordinate is in the block's range on its axis. -/
theorem mem_blk (t : Fin cfg0.N) (i : S32x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3).slice (win0_3.rect t)).set ↔ _
  rw [View.set_slice_whole, Rect.mem_set_unit]
  exact Iff.rfl

/-- Every index (bh, r', d) of the result array is in the block of point 4 * bh + r' / 512. -/
theorem cover (i : S32x2048x64.Idx) : ∃ t : Fin cfg0.N, (cfg0.win 3).flush t = true ∧ i ∈ ((cfg0.win 3).blk t).view.set := by
  have hN : cfg0.N = 128 := N_0
  have hi0 : (i 0).val < 32 := (i 0).isLt
  have hi1 : (i 1).val < 2048 := (i 1).isLt
  have hi2 : (i 2).val < 64 := (i 2).isLt
  obtain ⟨t, ht⟩ : ∃ t : Fin cfg0.N, t.val = 4 * (i 0).val + (i 1).val / 512 := ⟨⟨4 * (i 0).val + (i 1).val / 512, by omega⟩, rfl⟩
  obtain ⟨-, -, -, -, -, -, -, -, -, h0, h1, h2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; rw [h0]; omega
  | ⟨1, _⟩ => show win0_3.index t (1 : Fin 3) * 512 ≤ (i 1).val ∧ (i 1).val < win0_3.index t (1 : Fin 3) * 512 + 512; rw [h1]; omega
  | ⟨2, _⟩ => show win0_3.index t (2 : Fin 3) * 64 ≤ (i 2).val ∧ (i 2).val < win0_3.index t (2 : Fin 3) * 64 + 64; rw [h2]; omega

/-- After the last point the result array is `G3` of the three input arrays. -/
theorem final3 (c : Dev nD) : (dats m 0 c).arrAt 3 cfg0.N = G3 (V m c main_v0) (V m c main_v1) (V m c main_v2) :=
  (dats m 0 c).arrAt_eq_of_cover 3 (G3 (V m c main_v0) (V m c main_v1) (V m c main_v2)) (fun t _ => flushed_eq m c t) cover

end Cert.KArray

end
-- ==== Proof.KernelRun.lean ====
/-
  The idealized kernel's run with its result named: @main's result array ends at the streaming attention `GK` of
  the three argument arrays. The region leaves the [32, 2048, 64] array whose entry (bh, r, d) is the streaming
  attention of query row r of head bh; the arrays it reads are the arguments reshaped, and the result is that array
  reshaped back, so entry (b, h, r, d) of the result is the streaming attention of batch b, head h.
-/
import proofs.«109168_j47029891891312_2_alg».proof.Proof.HostGlue
import proofs.«109168_j47029891891312_2_alg».proof.Proof.KernelArray
import proofs.«109168_j47029891891312_2_alg».proof.Proof.Spec

noncomputable section

namespace Cert.KRun

open Idealize.ShloMosaic Idealize.ShloMosaic.TcCoe Idealize.ShloMosaic.ValueIdx Idealize.SL.Sem
open Cert.KernelIdeal Cert.KernelIdeal.Gen Cert.Attn Cert.KHost Cert.KArray

/-- The streaming attention on the merged layout, of the merged arguments, split back, is the streaming attention
    of the arguments. -/
theorem split_G3 (q k v : A4) :
    shapeCast S2x16x2048x64
        (G3 (shapeCast S32x2048x64 q Facts₀.shapeCasts_S2x16x2048x64_S32x2048x64)
          (shapeCast S32x2048x64 k Facts₀.shapeCasts_S2x16x2048x64_S32x2048x64)
          (shapeCast S32x2048x64 v Facts₀.shapeCasts_S2x16x2048x64_S32x2048x64))
        Facts₀.shapeCasts_S32x2048x64_S2x16x2048x64
      = GK q k v := by
  funext i
  obtain ⟨b, h, r, d, rfl⟩ : ∃ (b : Fin 2) (h : Fin 16) (r : Fin 2048) (d : Fin 64), i = ix4 b h r d :=
    ⟨i 0, i 1, i 2, i 3, eq_ix4 i⟩
  have hbh : 16 * b.val + h.val < 32 := by omega
  rw [split_apply _ b h r d ⟨16 * b.val + h.val, hbh⟩ rfl, G3_ix3, GK_ix4]
  unfold attnK score
  simp only [merge_apply _ b h _ _ ⟨16 * b.val + h.val, hbh⟩ rfl]

variable (m : (ℓ : Loc nD τ sig) → Buf (Elt Ideal) ℓ) (ρ : Dev nD → PrngReg)

/-- Every weakly fair execution of the idealized kernel's @main terminates with the result at the streaming
    attention of the arguments and the arguments unchanged. -/
theorem run :
    θ_run defs (onTc (τ := τ) (main (F := Ideal))) ⟨m, fun _ => 0, ρ⟩ (fun r => ∀ c : Dev nD,
      r.2.mem ((c.tc : Thread nD τ).loc main_v4)
          = GK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)
  refine ((h c).2 main_v4 (Pipeline.mem_restRefs_of main_v4 (by decide) (by decide))).trans ?_
  refine (tail_main_v4 m c).trans ?_
  rw [final3 m c, V_main_v0 m c, V_main_v1 m c, V_main_v2 m c]
  exact split_G3 _ _ _

end Cert.KRun

end
-- ==== Proof.lean ====
/-
  Scaled dot-product attention, q k v : f32[2, 16, 2048, 64]: a kernel that streams the keys in four chunks of 512
  with a running maximum, normaliser and weighted sum per query row, against softmax (q kᵀ / 8) v written with jnp.

  At the ideal values (floats are extended reals, every operation exact, a change of format the identity) both
  programs compute, at entry (b, h, r, d), a softmax-weighted sum of column d of the values of head (b, h), with the
  scores of query row r against the 2048 key rows:
  * the reference subtracts the row's maximum M, exponentiates, divides each weight by the sum L of the weights, and
    sums weight × value (`Cert.Attn.G`);
  * the kernel keeps (m, l, a) and, per chunk, replaces m by the larger of m and the chunk's maximum and rescales l
    and a by exp (m_old - m_new) before adding the chunk's weights and weighted values; it stores a / l
    (`Cert.Attn.GK`).
  With finite inputs every score is a real. The rescalings telescope (exp (m - m') · exp (s - m) = exp (s - m')), so
  after the last chunk l = ∑ exp (s - m₄) and a = ∑ exp (s - m₄) · v over all keys; m₄ = M because both are the
  largest score; and (∑ e v) / L = ∑ (e / L) v because L is a positive real. That law is `Cert.Attn.GK_eq_G_of_real`;
  finiteness is what makes the extended-real arithmetic the real one (a product distributes over a sum, a
  quotient by L is a product with 1 / L).

  The frames of the two kernel programs are the generated ones; the reference's frame is its generated run with
  the result dropped. The idealization rewrote nothing, so `preserves` has no conjunct.
-/
import proofs.«109168_j47029891891312_2_alg».proof.Defs
import proofs.«109168_j47029891891312_2_alg».proof.Proof.Gen.Kernel
import proofs.«109168_j47029891891312_2_alg».proof.Proof.Gen.Kernel.Frame
import proofs.«109168_j47029891891312_2_alg».proof.Proof.Gen.KernelIdeal
import proofs.«109168_j47029891891312_2_alg».proof.Proof.Gen.KernelIdeal.Frame
import proofs.«109168_j47029891891312_2_alg».proof.Proof.Gen.ReferenceIdeal
import proofs.«109168_j47029891891312_2_alg».proof.Proof.Gen.ReferenceIdeal.Run
import proofs.«109168_j47029891891312_2_alg».proof.Proof.Gen.ReferenceIdeal.Read
import proofs.«109168_j47029891891312_2_alg».proof.Proof.Gen.Pre_finite_inputs
import proofs.«109168_j47029891891312_2_alg».proof.Proof.Spec
import proofs.«109168_j47029891891312_2_alg».proof.Proof.SoftmaxLaw
import proofs.«109168_j47029891891312_2_alg».proof.Proof.RefSide
import proofs.«109168_j47029891891312_2_alg».proof.Proof.Finite
import proofs.«109168_j47029891891312_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the textbook attention of the (agreeing, finite) arguments: the kernel with
    the streaming form, which is the textbook one on finite inputs; the reference with the textbook form itself. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KRun.run m ρ)
    obtain ⟨h0, h1, h2⟩ := Cert.Finite.real_of_fn _ _ _ (hpre c)
    exact Cert.Attn.GK_eq_G_of_real _ _ _ h0 h1 h2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v14_eq, Cert.RefSide.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
